-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S300000 : S_.BroadcastsInDim S300000 (![] : Fin 0 → Fin S300000.rank)
  reducesTo_S300000_S_d0 : S300000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x300000 32) (main_arg2 : FVec F S300000 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S300000 .f32 := Host.absf main_arg2
  let main_cst_0 : FVec F S_ .f32 := constant S_ .f32 0x7F800000#32
  let main_v5 : FVec F S300000 .f32 := broadcastInDim S300000 ![] bcast_S_S300000 main_cst_0
  let main_v6 : IVec S300000 1 := cmpf .olt main_v4 main_v5
  let main_c_1 : IVec S_ 1 := constantI S_ 1 1#1
  let main_v7 : IVec S_ 1 := (fun x v => Host.reduce IntOp.andi x v reducesTo_S300000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S50000x256 : Shape := ⟨2, ![50000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S1x300000 : Shape := ⟨2, ![1, 300000]⟩
abbrev S_ : Shape := ⟨0, ![]⟩
abbrev S50000 : Shape := ⟨1, ![50000]⟩
abbrev S300000x1 : Shape := ⟨2, ![300000, 1]⟩
abbrev S1000x256 : Shape := ⟨2, ![1000, 256]⟩
abbrev S300000x256 : Shape := ⟨2, ![300000, 256]⟩
abbrev S1x256 : Shape := ⟨2, ![1, 256]⟩

abbrev nBuf : Space → Nat
  | .hbm => 83
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x300000, .i32⟩
  | .hbm, ⟨2, _⟩ => ⟨S300000, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x300000, .i32⟩
  | .hbm, ⟨10, _⟩ => ⟨S300000, .i32⟩
  | .hbm, ⟨11, _⟩ => ⟨S1x300000, .i32⟩
  | .hbm, ⟨12, _⟩ => ⟨S300000, .i32⟩
  | .hbm, ⟨13, _⟩ => ⟨S_, .f32⟩
  | .hbm, ⟨14, _⟩ => ⟨S50000, .f32⟩
  | .hbm, ⟨15, _⟩ => ⟨S300000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S300000x1, .i32⟩
  | .hbm, ⟨20, _⟩ => ⟨S50000, .f32⟩
  | .hbm, ⟨21, _⟩ => ⟨S_, .i32⟩
  | .hbm, ⟨22, _⟩ => ⟨S300000, .i32⟩
  | .hbm, ⟨23, _⟩ => ⟨S300000, .i1⟩
  | .hbm, ⟨24, _⟩ => ⟨S_, .i32⟩
  | .hbm, ⟨25, _⟩ => ⟨S300000, .i32⟩
  | .hbm, ⟨26, _⟩ => ⟨S300000, .i32⟩
  | .hbm, ⟨27, _⟩ => ⟨S300000, .i32⟩
  | .hbm, ⟨28, _⟩ => ⟨S300000x1, .i32⟩
  | .hbm, ⟨29, _⟩ => ⟨S300000, .f32⟩
  | .hbm, ⟨30, _⟩ => ⟨S_, .i32⟩
  | .hbm, ⟨31, _⟩ => ⟨S300000, .i32⟩
  | .hbm, ⟨32, _⟩ => ⟨S300000, .i1⟩
  | .hbm, ⟨33, _⟩ => ⟨S_, .i32⟩
  | .hbm, ⟨34, _⟩ => ⟨S300000, .i32⟩
  | .hbm, ⟨35, _⟩ => ⟨S300000, .i32⟩
  | .hbm, ⟨36, _⟩ => ⟨S300000, .i32⟩
  | .hbm, ⟨37, _⟩ => ⟨S300000x1, .i32⟩
  | .hbm, ⟨38, _⟩ => ⟨S300000, .f32⟩
  | .hbm, ⟨39, _⟩ => ⟨S300000, .f32⟩
  | .hbm, ⟨40, _⟩ => ⟨S_, .f32⟩
  | .hbm, ⟨41, _⟩ => ⟨S300000, .f32⟩
  | .hbm, ⟨42, _⟩ => ⟨S300000, .f32⟩
  | .hbm, ⟨43, _⟩ => ⟨S300000, .f32⟩
  | .hbm, ⟨44, _⟩ => ⟨S300000, .f32⟩
  | .hbm, ⟨45, _⟩ => ⟨S50000x256, .f32⟩
  | .hbm, ⟨46, _⟩ => ⟨S_, .i32⟩
  | .hbm, ⟨47, _⟩ => ⟨S300000, .i32⟩
  | .hbm, ⟨48, _⟩ => ⟨S300000, .i1⟩
  | .hbm, ⟨49, _⟩ => ⟨S_, .i32⟩
  | .hbm, ⟨50, _⟩ => ⟨S300000, .i32⟩
  | .hbm, ⟨51, _⟩ => ⟨S300000, .i32⟩
  | .hbm, ⟨52, _⟩ => ⟨S300000, .i32⟩
  | .hbm, ⟨53, _⟩ => ⟨S300000x1, .i32⟩
  | .hbm, ⟨54, _⟩ => ⟨S300000x256, .f32⟩
  | .hbm, ⟨55, _⟩ => ⟨S300000x1, .f32⟩
  | .hbm, ⟨56, _⟩ => ⟨S300000x256, .f32⟩
  | .hbm, ⟨57, _⟩ => ⟨S300000x256, .f32⟩
  | .hbm, ⟨58, _⟩ => ⟨S_, .f32⟩
  | .hbm, ⟨59, _⟩ => ⟨S50000x256, .f32⟩
  | .hbm, ⟨60, _⟩ => ⟨S300000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S_, .i32⟩
  | .hbm, ⟨65, _⟩ => ⟨S300000, .i32⟩
  | .hbm, ⟨66, _⟩ => ⟨S300000, .i1⟩
  | .hbm, ⟨67, _⟩ => ⟨S_, .i32⟩
  | .hbm, ⟨68, _⟩ => ⟨S300000, .i32⟩
  | .hbm, ⟨69, _⟩ => ⟨S300000, .i32⟩
  | .hbm, ⟨70, _⟩ => ⟨S300000, .i32⟩
  | .hbm, ⟨71, _⟩ => ⟨S300000x1, .i32⟩
  | .hbm, ⟨72, _⟩ => ⟨S300000x256, .f32⟩
  | .hbm, ⟨73, _⟩ => ⟨S300000x1, .f32⟩
  | .hbm, ⟨74, _⟩ => ⟨S300000x256, .f32⟩
  | .hbm, ⟨75, _⟩ => ⟨S300000x256, .f32⟩
  | .hbm, ⟨76, _⟩ => ⟨S_, .f32⟩
  | .hbm, ⟨77, _⟩ => ⟨S50000x256, .f32⟩
  | .hbm, ⟨78, _⟩ => ⟨S300000x1, .i32⟩
  | .hbm, ⟨79, _⟩ => ⟨S50000x256, .f32⟩
  | .hbm, ⟨80, _⟩ => ⟨S1x256, .f32⟩
  | .hbm, ⟨81, _⟩ => ⟨S1x256, .f32⟩
  | .hbm, ⟨82, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1x256, .f32⟩
  | .local _ .vmem, ⟨8, _⟩ => ⟨S256x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S1000x256, .f32⟩
  | .local _ .vmem, ⟨17, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S50000 : S_.BroadcastsInDim S50000 (![] : Fin 0 → Fin S50000.rank)
  bcast_S300000_S300000x1_0 : S300000.BroadcastsInDim S300000x1 (![0] : Fin 1 → Fin S300000x1.rank)
  bcast_S_S300000 : S_.BroadcastsInDim S300000 (![] : Fin 0 → Fin S300000.rank)
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S300000x1_S300000x256_0_1 : S300000x1.BroadcastsInDim S300000x256 (![0, 1] : Fin 2 → Fin S300000x256.rank)
  bcast_S_S50000x256 : S_.BroadcastsInDim S50000x256 (![] : Fin 0 → Fin S50000x256.rank)
  shapeCasts_S256_S1x256 : S256.ShapeCasts S1x256
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  scatter_S50000_S300000x1_S300000_n_0_0_1_wf : ScatterDims.WF S50000 S300000x1 S300000 [] [0] [0] 1
  gather_S50000_S300000x1_S300000_n_0_n_n_0_1_1_wf : GatherDims.WF S50000 S300000x1 S300000 [] [0] [] [0] [] 1 ![1]
  dot_S1000x256_S256x256_S1000x256_1_0_0_1_n_n_wf : DotDims.WF S1000x256 S256x256 S1000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x256.size a ≤ S50000x256.size a
  hwx2_4 : ∀ i : grid2.Coords, EltTy.bits .f32 = 32 ∨ (Rect.block (s := S50000x256) S1000x256.size (cc2_transform_4 i) (hinb2_4 i)).WholeWords (EltTy.packing .f32)

variable [Facts₀]

def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def gather_S50000_S300000x1_S300000_n_0_n_n_0_1_1 : GatherDims S50000 S300000x1 S300000 where
  offsetDims := []
  collapsedSliceDims := [0]
  operandBatchingDims := []
  startIndicesBatchingDims := []
  startIndexMap := [0]
  indexVectorDim := 1
  sliceSizes := ![1]
  wf := gather_S50000_S300000x1_S300000_n_0_n_n_0_1_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S1x300000 : Shape := ⟨2, ![1, 300000]⟩
abbrev S_ : Shape := ⟨0, ![]⟩
abbrev S50000 : Shape := ⟨1, ![50000]⟩
abbrev S300000x1 : Shape := ⟨2, ![300000, 1]⟩
abbrev S300000x256 : Shape := ⟨2, ![300000, 256]⟩
abbrev S1x256 : Shape := ⟨2, ![1, 256]⟩

abbrev nBuf : Space → Nat
  | .hbm => 95
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x300000, .i32⟩
  | .hbm, ⟨2, _⟩ => ⟨S300000, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x300000, .i32⟩
  | .hbm, ⟨10, _⟩ => ⟨S300000, .i32⟩
  | .hbm, ⟨11, _⟩ => ⟨S1x300000, .i32⟩
  | .hbm, ⟨12, _⟩ => ⟨S300000, .i32⟩
  | .hbm, ⟨13, _⟩ => ⟨S_, .f32⟩
  | .hbm, ⟨14, _⟩ => ⟨S50000, .f32⟩
  | .hbm, ⟨15, _⟩ => ⟨S300000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S300000x1, .i32⟩
  | .hbm, ⟨20, _⟩ => ⟨S50000, .f32⟩
  | .hbm, ⟨21, _⟩ => ⟨S_, .i32⟩
  | .hbm, ⟨22, _⟩ => ⟨S300000, .i32⟩
  | .hbm, ⟨23, _⟩ => ⟨S300000, .i1⟩
  | .hbm, ⟨24, _⟩ => ⟨S_, .i32⟩
  | .hbm, ⟨25, _⟩ => ⟨S300000, .i32⟩
  | .hbm, ⟨26, _⟩ => ⟨S300000, .i32⟩
  | .hbm, ⟨27, _⟩ => ⟨S300000, .i32⟩
  | .hbm, ⟨28, _⟩ => ⟨S300000x1, .i32⟩
  | .hbm, ⟨29, _⟩ => ⟨S300000, .f32⟩
  | .hbm, ⟨30, _⟩ => ⟨S_, .i32⟩
  | .hbm, ⟨31, _⟩ => ⟨S300000, .i32⟩
  | .hbm, ⟨32, _⟩ => ⟨S300000, .i1⟩
  | .hbm, ⟨33, _⟩ => ⟨S_, .i32⟩
  | .hbm, ⟨34, _⟩ => ⟨S300000, .i32⟩
  | .hbm, ⟨35, _⟩ => ⟨S300000, .i32⟩
  | .hbm, ⟨36, _⟩ => ⟨S300000, .i32⟩
  | .hbm, ⟨37, _⟩ => ⟨S300000x1, .i32⟩
  | .hbm, ⟨38, _⟩ => ⟨S300000, .f32⟩
  | .hbm, ⟨39, _⟩ => ⟨S300000, .f32⟩
  | .hbm, ⟨40, _⟩ => ⟨S_, .f32⟩
  | .hbm, ⟨41, _⟩ => ⟨S300000, .f32⟩
  | .hbm, ⟨42, _⟩ => ⟨S300000, .f32⟩
  | .hbm, ⟨43, _⟩ => ⟨S300000, .f32⟩
  | .hbm, ⟨44, _⟩ => ⟨S300000, .f32⟩
  | .hbm, ⟨45, _⟩ => ⟨S50000x256, .f32⟩
  | .hbm, ⟨46, _⟩ => ⟨S_, .i32⟩
  | .hbm, ⟨47, _⟩ => ⟨S300000, .i32⟩
  | .hbm, ⟨48, _⟩ => ⟨S300000, .i1⟩
  | .hbm, ⟨49, _⟩ => ⟨S_, .i32⟩
  | .hbm, ⟨50, _⟩ => ⟨S300000, .i32⟩
  | .hbm, ⟨51, _⟩ => ⟨S300000, .i32⟩
  | .hbm, ⟨52, _⟩ => ⟨S300000, .i32⟩
  | .hbm, ⟨53, _⟩ => ⟨S300000x1, .i32⟩
  | .hbm, ⟨54, _⟩ => ⟨S300000x256, .f32⟩
  | .hbm, ⟨55, _⟩ => ⟨S300000x1, .f32⟩
  | .hbm, ⟨56, _⟩ => ⟨S300000x256, .f32⟩
  | .hbm, ⟨57, _⟩ => ⟨S300000x256, .f32⟩
  | .hbm, ⟨58, _⟩ => ⟨S_, .f32⟩
  | .hbm, ⟨59, _⟩ => ⟨S50000x256, .f32⟩
  | .hbm, ⟨60, _⟩ => ⟨S300000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | .hbm, ⟨68, _⟩ => ⟨S50000x256, .f32⟩
  | .hbm, ⟨69, _⟩ => ⟨S_, .i32⟩
  | .hbm, ⟨70, _⟩ => ⟨S300000, .i32⟩
  | .hbm, ⟨71, _⟩ => ⟨S300000, .i1⟩
  | .hbm, ⟨72, _⟩ => ⟨S_, .i32⟩
  | .hbm, ⟨73, _⟩ => ⟨S300000, .i32⟩
  | .hbm, ⟨74, _⟩ => ⟨S300000, .i32⟩
  | .hbm, ⟨75, _⟩ => ⟨S300000, .i32⟩
  | .hbm, ⟨76, _⟩ => ⟨S300000x1, .i32⟩
  | .hbm, ⟨77, _⟩ => ⟨S300000x256, .f32⟩
  | .hbm, ⟨78, _⟩ => ⟨S300000x1, .f32⟩
  | .hbm, ⟨79, _⟩ => ⟨S300000x256, .f32⟩
  | .hbm, ⟨80, _⟩ => ⟨S300000x256, .f32⟩
  | .hbm, ⟨81, _⟩ => ⟨S_, .f32⟩
  | .hbm, ⟨82, _⟩ => ⟨S50000x256, .f32⟩
  | .hbm, ⟨83, _⟩ => ⟨S300000x1, .i32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x256, .f32⟩
  | .hbm, ⟨88, _⟩ => ⟨S_, .f32⟩
  | .hbm, ⟨89, _⟩ => ⟨S50000x256, .f32⟩
  | .hbm, ⟨90, _⟩ => ⟨S50000x256, .f32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S50000 : S_.BroadcastsInDim S50000 (![] : Fin 0 → Fin S50000.rank)
  bcast_S300000_S300000x1_0 : S300000.BroadcastsInDim S300000x1 (![0] : Fin 1 → Fin S300000x1.rank)
  bcast_S_S300000 : S_.BroadcastsInDim S300000 (![] : Fin 0 → Fin S300000.rank)
  bcast_S300000x1_S300000x256_0_1 : S300000x1.BroadcastsInDim S300000x256 (![0, 1] : Fin 2 → Fin S300000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S300000x1_S300000_n_0_0_1_wf : ScatterDims.WF S50000 S300000x1 S300000 [] [0] [0] 1
  gather_S50000_S300000x1_S300000_n_0_n_n_0_1_1_wf : GatherDims.WF S50000 S300000x1 S300000 [] [0] [] [0] [] 1 ![1]
  dot_S50000x256_S256x256_S50000x256_1_0_0_1_n_n_wf : DotDims.WF S50000x256 S256x256 S50000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1

variable [Facts₀]

def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def gather_S50000_S300000x1_S300000_n_0_n_n_0_1_1 : GatherDims S50000 S300000x1 S300000 where
  offsetDims := []
  collapsedSliceDims := [0]
  operandBatchingDims := []
  startIndicesBatchingDims := []
  startIndexMap := [0]
  indexVectorDim := 1
  sliceSizes := ![1]
  wf := gather_S50000_S300000x1_S300000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf

class Facts : Prop extends Facts₀ where

variable [Facts]
-- ==== Proof.Spec.lean ====
/-
  The common form of the two programs' results.

  Both programs compute, from node features x : [50000, 256], an edge list, edge weights and three
  256 × 256 weight matrices with biases,

      out = relu (A (relu (A (x · W6) + b6) · W7) + b7) · Wp + bp ,

  where A is the normalised edge aggregation (gather rows at the edge sources, scale by the edge
  norms, scatter-add at the edge targets).  This module names the dense stages as functions of
  whole arrays over the reference's shapes: `mm` the product of a [50000, 256] array with a
  [256, 256] matrix, `biasRelu` the row-broadcast bias added and the positive part taken, `layer`
  and `head` their compositions, and `agg` the aggregation as a function of the source column, the
  target column, the edge norms and the transformed features.
-/
import proofs.«122692_j6923487282041_1_alg».proof.Proof.Gen.ReferenceIdeal.Read

noncomputable section

namespace Cert.Bridge

open Idealize.ShloMosaic Cert.ReferenceIdeal Cert.ReferenceIdeal.Gen Cert.ReferenceIdeal.Read

variable {F : FTy → Type} [FloatOps F]

/-- The product of a [50000, 256] array with a [256, 256] matrix (the host's `dot_general`). -/
def mm (x : (⟨S50000x256, .f32⟩ : BufTy).Contents (Elt F)) (w : (⟨S256x256, .f32⟩ : BufTy).Contents (Elt F)) :
    (⟨S50000x256, .f32⟩ : BufTy).Contents (Elt F) :=
  Host.dotGeneral dot_S50000x256_S256x256_S50000x256_1_0_0_1_n_n none x w

/-- A [1, 256] row laid over the 50000 rows. -/
def rows (b2 : (⟨S1x256, .f32⟩ : BufTy).Contents (Elt F)) : (⟨S50000x256, .f32⟩ : BufTy).Contents (Elt F) :=
  broadcastInDim S50000x256 ![0, 1] bcast_S1x256_S50000x256_0_1 b2

/-- The all-zero [50000, 256] array. -/
def zeros : (⟨S50000x256, .f32⟩ : BufTy).Contents (Elt F) :=
  broadcastInDim S50000x256 ![] bcast_S_S50000x256 (constant (F := F) S_ .f32 0x00000000#32)

/-- `max (a + b, 0)`, the bias `b2` one row broadcast over the rows of `a`. -/
def biasRelu (a : (⟨S50000x256, .f32⟩ : BufTy).Contents (Elt F)) (b2 : (⟨S1x256, .f32⟩ : BufTy).Contents (Elt F)) :
    (⟨S50000x256, .f32⟩ : BufTy).Contents (Elt F) :=
  maximumf (addf a (rows b2)) zeros

/-- One hidden layer's dense stage: `relu (a + b) · w`. -/
def layer (a : (⟨S50000x256, .f32⟩ : BufTy).Contents (Elt F)) (b2 : (⟨S1x256, .f32⟩ : BufTy).Contents (Elt F))
    (w : (⟨S256x256, .f32⟩ : BufTy).Contents (Elt F)) : (⟨S50000x256, .f32⟩ : BufTy).Contents (Elt F) :=
  mm (biasRelu a b2) w

/-- The last dense stage: `relu (a + b) · w + bp`. -/
def head (a : (⟨S50000x256, .f32⟩ : BufTy).Contents (Elt F)) (b2 : (⟨S1x256, .f32⟩ : BufTy).Contents (Elt F))
    (w : (⟨S256x256, .f32⟩ : BufTy).Contents (Elt F)) (bp2 : (⟨S1x256, .f32⟩ : BufTy).Contents (Elt F)) :
    (⟨S50000x256, .f32⟩ : BufTy).Contents (Elt F) :=
  addf (layer a b2 w) (rows bp2)

/-- A length-256 vector as a [1, 256] row (the reference's spelling: a broadcast along a new leading axis). -/
def asRow (b : (⟨S256, .f32⟩ : BufTy).Contents (Elt F)) : (⟨S1x256, .f32⟩ : BufTy).Contents (Elt F) :=
  broadcastInDim S1x256 ![1] bcast_S256_S1x256_1 b

/-- The source column with negative entries wrapped by the number of nodes (the gather's index normalisation). -/
def wrap (s : (⟨S300000, .i32⟩ : BufTy).Contents (Elt F)) : (⟨S300000, .i32⟩ : BufTy).Contents (Elt F) :=
  select (cmpi .slt s (broadcastInDim S300000 ![] bcast_S_S300000 (constantI S_ 32 0#32)))
    (addi s (broadcastInDim S300000 ![] bcast_S_S300000 (constantI S_ 32 50000#32))) s

/-- The normalised edge aggregation: rows of `xt` gathered at the sources `s`, each scaled by its edge's norm `nrm`,
    summed into the rows named by the targets `d`. -/
def agg (s d : (⟨S300000, .i32⟩ : BufTy).Contents (Elt F)) (nrm : (⟨S300000, .f32⟩ : BufTy).Contents (Elt F))
    (xt : (⟨S50000x256, .f32⟩ : BufTy).Contents (Elt F)) : (⟨S50000x256, .f32⟩ : BufTy).Contents (Elt F) :=
  Host.scatterAdd scatter_S50000x256_S300000x1_S300000x256_1_0_0_1 zeros
    (broadcastInDim S300000x1 ![0] bcast_S300000_S300000x1_0 d)
    (mulf (Host.gather gather_S50000x256_S300000x1_S300000x256_1_0_n_n_0_1_1256 xt
        (broadcastInDim S300000x1 ![0] bcast_S300000_S300000x1_0 (wrap s)))
      (broadcastInDim S300000x256 ![0, 1] bcast_S300000x1_S300000x256_0_1
        (broadcastInDim S300000x1 ![0] bcast_S300000_S300000x1_0 nrm)))

/-- The whole network on the reference's shapes, from the source and target columns and the edge norms. -/
def net (s d : (⟨S300000, .i32⟩ : BufTy).Contents (Elt F)) (nrm : (⟨S300000, .f32⟩ : BufTy).Contents (Elt F))
    (x : (⟨S50000x256, .f32⟩ : BufTy).Contents (Elt F)) (w6 : (⟨S256x256, .f32⟩ : BufTy).Contents (Elt F))
    (b6 : (⟨S1x256, .f32⟩ : BufTy).Contents (Elt F)) (w7 : (⟨S256x256, .f32⟩ : BufTy).Contents (Elt F))
    (b7 : (⟨S1x256, .f32⟩ : BufTy).Contents (Elt F)) (wp : (⟨S256x256, .f32⟩ : BufTy).Contents (Elt F))
    (bp : (⟨S1x256, .f32⟩ : BufTy).Contents (Elt F)) : (⟨S50000x256, .f32⟩ : BufTy).Contents (Elt F) :=
  head (agg s d nrm (layer (agg s d nrm (mm x w6)) b6 w7)) b7 wp bp

/-- The reference's result is the network on its own source and target columns and edge norms. -/
theorem ref_eq (x0 : (⟨S50000x256, .f32⟩ : BufTy).Contents (Elt F)) (x1 : (⟨S2x300000, .i32⟩ : BufTy).Contents (Elt F))
    (x2 : (⟨S300000, .f32⟩ : BufTy).Contents (Elt F)) (x3 : (⟨S256x256, .f32⟩ : BufTy).Contents (Elt F))
    (x4 : (⟨S256, .f32⟩ : BufTy).Contents (Elt F)) (x5 : (⟨S256x256, .f32⟩ : BufTy).Contents (Elt F))
    (x6 : (⟨S256, .f32⟩ : BufTy).Contents (Elt F)) (x7 : (⟨S256x256, .f32⟩ : BufTy).Contents (Elt F))
    (x8 : (⟨S256, .f32⟩ : BufTy).Contents (Elt F)) :
    val_main_v68 (F := F) x0 x1 x2 x3 x4 x5 x6 x7 x8
      = net (val_main_v1 (F := F) x1) (val_main_v3 (F := F) x1) (val_main_v28 (F := F) x1 x2) x0 x3 (asRow x4) x5 (asRow x6) x7 (asRow x8) := rfl

end Cert.Bridge

end
-- ==== Proof.KernelRun.lean ====
/-
  The idealized kernel's run with its result named.

  The program is three grid regions among stretches of host operations.  Its generated frame proves that every
  weakly fair execution terminates with every unscoped buffer of a core at the contents `Gen.W6` — the fold of the
  host stretches and of each region's write-backs over the launch memory — and reads the argument arrays off that
  fold.  Here the same run is read at one more buffer, the result `main_v60`: it ends at `Gen.W6 … main_v60`.
-/
import proofs.«122692_j6923487282041_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument arrays end as launched. -/
theorem run : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Named

end
-- ==== Proof.Stretch.lean ====
/-
  The kernel program's host stretches, read one result at a time.

  The three stretches of host operations around the kernel's regions compute the source and target columns of the
  edge list, the edge norms, and — once per hidden layer — the normalised edge aggregation of the transformed
  features.  Each lemma here reads one buffer after one stretch, from ANY contents `W` at the stretch's entry, as
  the common form's function (Spec) of the entry contents of the buffers it depends on; the buffers a stretch does
  not write keep their contents.
-/
import proofs.«122692_j6923487282041_1_alg».proof.Proof.Gen.KernelIdeal.Launch
import proofs.«122692_j6923487282041_1_alg».proof.Proof.Spec
import Idealize.ShloMosaic.Lib.StableHlo.Run

noncomputable section

namespace Cert.Bridge

open Idealize.ShloMosaic Idealize.ShloMosaic.TcCoe Idealize.SL.Sem Idealize.ShloMosaic.StableHlo Cert.KernelIdeal Cert.KernelIdeal.Gen

variable {F : FTy → Type} [FloatOps F] (W : Valuation τ sig (Elt F))

/-! ## Before the first region: the columns of the edge list and the edge norms -/

/-- The source column: row 0 of the edge list. -/
theorem src_eq : StableHlo.after (hostOps0 (F := F)) W (Proc.devRef .tc main_v1) = Cert.ReferenceIdeal.Read.val_main_v1 (F := F) (W (Proc.devRef .tc main_arg1)) := by
  after_results_simp; rfl

/-- The target column: row 1 of the edge list. -/
theorem dst_eq : StableHlo.after (hostOps0 (F := F)) W (Proc.devRef .tc main_v3) = Cert.ReferenceIdeal.Read.val_main_v3 (F := F) (W (Proc.devRef .tc main_arg1)) := by
  after_results_simp; rfl

/-- The edge norms: each edge's weight over the root of its source's out-degree times its target's in-degree (plus ε). -/
theorem nrm_eq : StableHlo.after (hostOps0 (F := F)) W (Proc.devRef .tc main_v28)
    = Cert.ReferenceIdeal.Read.val_main_v28 (F := F) (W (Proc.devRef .tc main_arg1)) (W (Proc.devRef .tc main_arg2)) := by
  after_results_simp; rfl

theorem keep0_arg0 : StableHlo.after (hostOps0 (F := F)) W (Proc.devRef .tc main_arg0) = W (Proc.devRef .tc main_arg0) := by
  after_results_simp
theorem keep0_arg3 : StableHlo.after (hostOps0 (F := F)) W (Proc.devRef .tc main_arg3) = W (Proc.devRef .tc main_arg3) := by
  after_results_simp
theorem keep0_arg4 : StableHlo.after (hostOps0 (F := F)) W (Proc.devRef .tc main_arg4) = W (Proc.devRef .tc main_arg4) := by
  after_results_simp
theorem keep0_arg5 : StableHlo.after (hostOps0 (F := F)) W (Proc.devRef .tc main_arg5) = W (Proc.devRef .tc main_arg5) := by
  after_results_simp
theorem keep0_arg6 : StableHlo.after (hostOps0 (F := F)) W (Proc.devRef .tc main_arg6) = W (Proc.devRef .tc main_arg6) := by
  after_results_simp
theorem keep0_arg7 : StableHlo.after (hostOps0 (F := F)) W (Proc.devRef .tc main_arg7) = W (Proc.devRef .tc main_arg7) := by
  after_results_simp
theorem keep0_arg8 : StableHlo.after (hostOps0 (F := F)) W (Proc.devRef .tc main_arg8) = W (Proc.devRef .tc main_arg8) := by
  after_results_simp

/-! ## Between the first and the second region: the first aggregation, and the first bias as a row -/

/-- The aggregation of the first region's output. -/
theorem agg1_eq : StableHlo.after (hostOps1 (F := F)) W (Proc.devRef .tc main_v42)
    = agg (F := F) (W (Proc.devRef .tc main_v1)) (W (Proc.devRef .tc main_v3)) (W (Proc.devRef .tc main_v28)) (W (Proc.devRef .tc main_v29)) := by
  after_results_simp; rfl

/-- The first bias, reshaped to one row. -/
theorem b6_eq : StableHlo.after (hostOps1 (F := F)) W (Proc.devRef .tc main_v43)
    = shapeCast S1x256 (W (Proc.devRef .tc main_arg4)) shapeCasts_S256_S1x256 := by
  after_results_simp; rfl

theorem keep1_v1 : StableHlo.after (hostOps1 (F := F)) W (Proc.devRef .tc main_v1) = W (Proc.devRef .tc main_v1) := by
  after_results_simp
theorem keep1_v3 : StableHlo.after (hostOps1 (F := F)) W (Proc.devRef .tc main_v3) = W (Proc.devRef .tc main_v3) := by
  after_results_simp
theorem keep1_v28 : StableHlo.after (hostOps1 (F := F)) W (Proc.devRef .tc main_v28) = W (Proc.devRef .tc main_v28) := by
  after_results_simp
theorem keep1_arg5 : StableHlo.after (hostOps1 (F := F)) W (Proc.devRef .tc main_arg5) = W (Proc.devRef .tc main_arg5) := by
  after_results_simp
theorem keep1_arg6 : StableHlo.after (hostOps1 (F := F)) W (Proc.devRef .tc main_arg6) = W (Proc.devRef .tc main_arg6) := by
  after_results_simp
theorem keep1_arg7 : StableHlo.after (hostOps1 (F := F)) W (Proc.devRef .tc main_arg7) = W (Proc.devRef .tc main_arg7) := by
  after_results_simp
theorem keep1_arg8 : StableHlo.after (hostOps1 (F := F)) W (Proc.devRef .tc main_arg8) = W (Proc.devRef .tc main_arg8) := by
  after_results_simp

/-! ## Between the second and the third region: the second aggregation, and the last two biases as rows -/

/-- The aggregation of the second region's output. -/
theorem agg2_eq : StableHlo.after (hostOps2 (F := F)) W (Proc.devRef .tc main_v57)
    = agg (F := F) (W (Proc.devRef .tc main_v1)) (W (Proc.devRef .tc main_v3)) (W (Proc.devRef .tc main_v28)) (W (Proc.devRef .tc main_v44)) := by
  after_results_simp; rfl

/-- The second bias, reshaped to one row. -/
theorem b7_eq : StableHlo.after (hostOps2 (F := F)) W (Proc.devRef .tc main_v58)
    = shapeCast S1x256 (W (Proc.devRef .tc main_arg6)) shapeCasts_S256_S1x256 := by
  after_results_simp; rfl

/-- The head's bias, reshaped to one row. -/
theorem bp_eq : StableHlo.after (hostOps2 (F := F)) W (Proc.devRef .tc main_v59)
    = shapeCast S1x256 (W (Proc.devRef .tc main_arg8)) shapeCasts_S256_S1x256 := by
  after_results_simp; rfl

theorem keep2_arg7 : StableHlo.after (hostOps2 (F := F)) W (Proc.devRef .tc main_arg7) = W (Proc.devRef .tc main_arg7) := by
  after_results_simp

end Cert.Bridge

end
-- ==== Proof.RowLayout.lean ====
/-
  A length-256 vector reshaped to one row is the vector broadcast along a new leading axis: both [1, 256] arrays
  read the vector's entry q at (0, q).
-/
import proofs.«122692_j6923487282041_1_alg».proof.Proof.Gen.KernelIdeal
import proofs.«122692_j6923487282041_1_alg».proof.Proof.Spec
import Idealize.ShloMosaic.Lib.Pipeline.Value
import Idealize.ShloMosaic.Lib.ValueIdx

noncomputable section

namespace Cert.Bridge

open Idealize.ShloMosaic Cert.KernelIdeal Cert.KernelIdeal.Gen

variable {F : FTy → Type} [FloatOps F]

/-- The kernel's reshape of a bias to a row is the reference's broadcast of it to a row. -/
theorem reshape_eq_asRow (b : (⟨S256, .f32⟩ : BufTy).Contents (Elt F)) :
    shapeCast S1x256 b shapeCasts_S256_S1x256 = asRow (F := F) b := by
  funext j
  have hj0 : (j 0).val < 1 := (j 0).isLt
  have hj1 : (j 1).val < 256 := (j 1).isLt
  let k : S256.Idx := fun a => match a with | ⟨0, _⟩ => ⟨(j 1).val, hj1⟩
  have e1 : shapeCast S1x256 b shapeCasts_S256_S1x256 j = b k :=
    shapeCast_apply b shapeCasts_S256_S1x256 j k (by
      rewrite [Shape.rowMajor_val_two, Shape.rowMajor_val_one]
      show (j 1).val = (j 0).val * 256 + (j 1).val
      omega)
  have e2 : asRow (F := F) b j = b k := by
    unfold asRow
    exact broadcastInDim_apply _ _ b j k (fun a => match a with
      | ⟨0, _⟩ => by show (j 1).val = if (256 : Nat) = 1 then 0 else (j 1).val; rw [if_neg (by decide)])
  rw [e1, e2]

end Cert.Bridge

end
-- ==== Proof.Walk.lean ====
/-
  The kernel program's result, read through the fold of its host stretches and regions.

  The generated frame names the contents of every buffer at the six boundaries between the program's segments:
  `W1` after the first host stretch, `W2` after the first region, … `W6` after the third region.  Given what each
  region leaves in its output array as a function of the arrays it finds (the three hypotheses below: the product
  `x · W6`, then `relu (a + b6) · W7`, then `relu (a + b7) · Wp + bp`), the result buffer at the last boundary is the
  common form `net` of the launch contents of the arguments — the same function the reference's run computes.

  Each buffer is walked back explicitly: a host stretch that does not write it, and a region none of whose arrays it
  is, leave it as it was.
-/
import proofs.«122692_j6923487282041_1_alg».proof.Proof.Gen.KernelIdeal.Frame
import proofs.«122692_j6923487282041_1_alg».proof.Proof.Spec
import proofs.«122692_j6923487282041_1_alg».proof.Proof.Stretch
import proofs.«122692_j6923487282041_1_alg».proof.Proof.RowLayout

noncomputable section

namespace Cert.Bridge

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The source column, the target column and the edge norms, of the launch contents of the edge list and weights. -/
abbrev src := Cert.ReferenceIdeal.Read.val_main_v1 (F := Ideal) (m ((c : Thread nD τ).loc main_arg1))
abbrev dst := Cert.ReferenceIdeal.Read.val_main_v3 (F := Ideal) (m ((c : Thread nD τ).loc main_arg1))
abbrev nrm := Cert.ReferenceIdeal.Read.val_main_v28 (F := Ideal) (m ((c : Thread nD τ).loc main_arg1)) (m ((c : Thread nD τ).loc main_arg2))

/-! ## Boundary 1: after the first host stretch -/

theorem w1_src : W1 m ρ c (Proc.devRef .tc main_v1) = src m c := src_eq (W0 m ρ c)
theorem w1_dst : W1 m ρ c (Proc.devRef .tc main_v3) = dst m c := dst_eq (W0 m ρ c)
theorem w1_nrm : W1 m ρ c (Proc.devRef .tc main_v28) = nrm m c := nrm_eq (W0 m ρ c)
theorem w1_arg0 : W1 m ρ c (Proc.devRef .tc main_arg0) = (m ((c : Thread nD τ).loc main_arg0)) := keep0_arg0 (W0 m ρ c)
theorem w1_arg3 : W1 m ρ c (Proc.devRef .tc main_arg3) = (m ((c : Thread nD τ).loc main_arg3)) := keep0_arg3 (W0 m ρ c)
theorem w1_arg4 : W1 m ρ c (Proc.devRef .tc main_arg4) = (m ((c : Thread nD τ).loc main_arg4)) := keep0_arg4 (W0 m ρ c)
theorem w1_arg5 : W1 m ρ c (Proc.devRef .tc main_arg5) = (m ((c : Thread nD τ).loc main_arg5)) := keep0_arg5 (W0 m ρ c)
theorem w1_arg6 : W1 m ρ c (Proc.devRef .tc main_arg6) = (m ((c : Thread nD τ).loc main_arg6)) := keep0_arg6 (W0 m ρ c)
theorem w1_arg7 : W1 m ρ c (Proc.devRef .tc main_arg7) = (m ((c : Thread nD τ).loc main_arg7)) := keep0_arg7 (W0 m ρ c)
theorem w1_arg8 : W1 m ρ c (Proc.devRef .tc main_arg8) = (m ((c : Thread nD τ).loc main_arg8)) := keep0_arg8 (W0 m ρ c)

/-! ## Boundary 2: after the first region (its arrays: the features, the first weight, the product) -/

theorem w2_src : W2 m ρ c (Proc.devRef .tc main_v1) = src m c := (W2_of_ne m ρ c main_v1 (by decide)).trans (w1_src m ρ c)
theorem w2_dst : W2 m ρ c (Proc.devRef .tc main_v3) = dst m c := (W2_of_ne m ρ c main_v3 (by decide)).trans (w1_dst m ρ c)
theorem w2_nrm : W2 m ρ c (Proc.devRef .tc main_v28) = nrm m c := (W2_of_ne m ρ c main_v28 (by decide)).trans (w1_nrm m ρ c)
theorem w2_arg4 : W2 m ρ c (Proc.devRef .tc main_arg4) = (m ((c : Thread nD τ).loc main_arg4)) := (W2_of_ne m ρ c main_arg4 (by decide)).trans (w1_arg4 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)

/-- What each region leaves in its output array, as a function of the arrays it finds: the hypotheses of the walk. -/
abbrev Region0Value : Prop := ∀ (V : (c : Dev nD) → (b : Ref sig .tc) → Buf (Elt Ideal) ((c : Thread nD τ).loc b)) (c : Dev nD),
    (dat0 V c).arrAt 2 cfg0.N = mm (F := Ideal) (V c main_arg0) (V c main_arg3)
abbrev Region1Value : Prop := ∀ (V : (c : Dev nD) → (b : Ref sig .tc) → Buf (Elt Ideal) ((c : Thread nD τ).loc b)) (c : Dev nD),
    (dat1 V c).arrAt 3 cfg1.N = layer (F := Ideal) (V c main_v42) (V c main_v43) (V c main_arg5)
abbrev Region2Value : Prop := ∀ (V : (c : Dev nD) → (b : Ref sig .tc) → Buf (Elt Ideal) ((c : Thread nD τ).loc b)) (c : Dev nD),
    (dat2 V c).arrAt 4 cfg2.N = head (F := Ideal) (V c main_v57) (V c main_v58) (V c main_arg7) (V c main_v59)

/-- The first region's output array: the features times the first weight. -/
theorem w2_xt (h0 : Region0Value) : W2 m ρ c (Proc.devRef .tc main_v29) = mm (F := Ideal) (m ((c : Thread nD τ).loc main_arg0)) (m ((c : Thread nD τ).loc main_arg3)) := by
  refine (W2_arr m ρ c 2).trans ((h0 (V1 m ρ) c).trans ?_)
  rw [show V1 m ρ c main_arg0 = (m ((c : Thread nD τ).loc main_arg0)) from w1_arg0 m ρ c, show V1 m ρ c main_arg3 = (m ((c : Thread nD τ).loc main_arg3)) from w1_arg3 m ρ c]

/-! ## Boundary 3: after the second host stretch -/

theorem w3_src : W3 m ρ c (Proc.devRef .tc main_v1) = src m c := (keep1_v1 (W2 m ρ c)).trans (w2_src m ρ c)
theorem w3_dst : W3 m ρ c (Proc.devRef .tc main_v3) = dst m c := (keep1_v3 (W2 m ρ c)).trans (w2_dst m ρ c)
theorem w3_nrm : W3 m ρ c (Proc.devRef .tc main_v28) = nrm m c := (keep1_v28 (W2 m ρ c)).trans (w2_nrm m ρ c)
theorem w3_arg5 : W3 m ρ c (Proc.devRef .tc main_arg5) = (m ((c : Thread nD τ).loc main_arg5)) := (keep1_arg5 (W2 m ρ c)).trans (w2_arg5 m ρ c)
theorem w3_arg6 : W3 m ρ c (Proc.devRef .tc main_arg6) = (m ((c : Thread nD τ).loc main_arg6)) := (keep1_arg6 (W2 m ρ c)).trans (w2_arg6 m ρ c)
theorem w3_arg7 : W3 m ρ c (Proc.devRef .tc main_arg7) = (m ((c : Thread nD τ).loc main_arg7)) := (keep1_arg7 (W2 m ρ c)).trans (w2_arg7 m ρ c)
theorem w3_arg8 : W3 m ρ c (Proc.devRef .tc main_arg8) = (m ((c : Thread nD τ).loc main_arg8)) := (keep1_arg8 (W2 m ρ c)).trans (w2_arg8 m ρ c)

/-- The first aggregation. -/
theorem w3_agg (h0 : Region0Value) : W3 m ρ c (Proc.devRef .tc main_v42)
    = agg (F := Ideal) (src m c) (dst m c) (nrm m c) (mm (F := Ideal) (m ((c : Thread nD τ).loc main_arg0)) (m ((c : Thread nD τ).loc main_arg3))) := by
  refine (agg1_eq (W2 m ρ c)).trans ?_
  rw [w2_src m ρ c, w2_dst m ρ c, w2_nrm m ρ c, w2_xt m ρ c h0]

/-- The first bias as a row. -/
theorem w3_b6 : W3 m ρ c (Proc.devRef .tc main_v43) = asRow (F := Ideal) (m ((c : Thread nD τ).loc main_arg4)) := by
  refine (b6_eq (W2 m ρ c)).trans ?_
  rw [w2_arg4 m ρ c]
  exact reshape_eq_asRow _

/-! ## Boundary 4: after the second region (its arrays: the aggregation, the bias row, the second weight, the output) -/

theorem w4_src : W4 m ρ c (Proc.devRef .tc main_v1) = src m c := (W4_of_ne m ρ c main_v1 (by decide)).trans (w3_src m ρ c)
theorem w4_dst : W4 m ρ c (Proc.devRef .tc main_v3) = dst m c := (W4_of_ne m ρ c main_v3 (by decide)).trans (w3_dst m ρ c)
theorem w4_nrm : W4 m ρ c (Proc.devRef .tc main_v28) = nrm m c := (W4_of_ne m ρ c main_v28 (by decide)).trans (w3_nrm m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)
theorem w4_arg8 : W4 m ρ c (Proc.devRef .tc main_arg8) = (m ((c : Thread nD τ).loc main_arg8)) := (W4_of_ne m ρ c main_arg8 (by decide)).trans (w3_arg8 m ρ c)

/-- The second region's output array: the first hidden layer's dense stage. -/
theorem w4_h (h0 : Region0Value) (h1 : Region1Value) : W4 m ρ c (Proc.devRef .tc main_v44)
    = layer (F := Ideal) (agg (F := Ideal) (src m c) (dst m c) (nrm m c) (mm (F := Ideal) (m ((c : Thread nD τ).loc main_arg0)) (m ((c : Thread nD τ).loc main_arg3))))
        (asRow (F := Ideal) (m ((c : Thread nD τ).loc main_arg4))) (m ((c : Thread nD τ).loc main_arg5)) := by
  refine (W4_arr m ρ c 3).trans ((h1 (V3 m ρ) c).trans ?_)
  rw [show V3 m ρ c main_v42 = _ from w3_agg m ρ c h0, show V3 m ρ c main_v43 = _ from w3_b6 m ρ c,
    show V3 m ρ c main_arg5 = (m ((c : Thread nD τ).loc main_arg5)) from w3_arg5 m ρ c]

/-! ## Boundary 5: after the third host stretch -/

theorem w5_arg7 : W5 m ρ c (Proc.devRef .tc main_arg7) = (m ((c : Thread nD τ).loc main_arg7)) := (keep2_arg7 (W4 m ρ c)).trans (w4_arg7 m ρ c)

/-- The second aggregation. -/
theorem w5_agg (h0 : Region0Value) (h1 : Region1Value) : W5 m ρ c (Proc.devRef .tc main_v57)
    = agg (F := Ideal) (src m c) (dst m c) (nrm m c)
        (layer (F := Ideal) (agg (F := Ideal) (src m c) (dst m c) (nrm m c) (mm (F := Ideal) (m ((c : Thread nD τ).loc main_arg0)) (m ((c : Thread nD τ).loc main_arg3))))
          (asRow (F := Ideal) (m ((c : Thread nD τ).loc main_arg4))) (m ((c : Thread nD τ).loc main_arg5))) := by
  refine (agg2_eq (W4 m ρ c)).trans ?_
  rw [w4_src m ρ c, w4_dst m ρ c, w4_nrm m ρ c, w4_h m ρ c h0 h1]

theorem w5_b7 : W5 m ρ c (Proc.devRef .tc main_v58) = asRow (F := Ideal) (m ((c : Thread nD τ).loc main_arg6)) := by
  refine (b7_eq (W4 m ρ c)).trans ?_
  rw [w4_arg6 m ρ c]
  exact reshape_eq_asRow _

theorem w5_bp : W5 m ρ c (Proc.devRef .tc main_v59) = asRow (F := Ideal) (m ((c : Thread nD τ).loc main_arg8)) := by
  refine (bp_eq (W4 m ρ c)).trans ?_
  rw [w4_arg8 m ρ c]
  exact reshape_eq_asRow _

/-! ## Boundary 6: after the third region — the result -/

/-- The result buffer at the last boundary is the network of the launch contents. -/
theorem w6_out (h0 : Region0Value) (h1 : Region1Value) (h2 : Region2Value) : W6 m ρ c (Proc.devRef .tc main_v60)
    = net (F := Ideal) (src m c) (dst m c) (nrm m c) (m ((c : Thread nD τ).loc main_arg0)) (m ((c : Thread nD τ).loc main_arg3)) (asRow (F := Ideal) (m ((c : Thread nD τ).loc main_arg4))) (m ((c : Thread nD τ).loc main_arg5))
        (asRow (F := Ideal) (m ((c : Thread nD τ).loc main_arg6))) (m ((c : Thread nD τ).loc main_arg7)) (asRow (F := Ideal) (m ((c : Thread nD τ).loc main_arg8))) := by
  refine (W6_arr m ρ c 4).trans ((h2 (V5 m ρ) c).trans ?_)
  rw [show V5 m ρ c main_v57 = _ from w5_agg m ρ c h0 h1, show V5 m ρ c main_v58 = _ from w5_b7 m ρ c,
    show V5 m ρ c main_arg7 = (m ((c : Thread nD τ).loc main_arg7)) from w5_arg7 m ρ c, show V5 m ρ c main_v59 = _ from w5_bp m ρ c]
  rfl

end Cert.Bridge

end
-- ==== Proof.KMatmul.lean ====
/-
  A matrix product read at an index.

  Two readings of "row p of the left operand times column q of the right operand", both at the
  extended reals: the kernel's block product of a [1000, 256] block with a [256, 256] matrix into a
  zero accumulator, and the whole-array product `mm` of a [50000, 256] array with a [256, 256]
  matrix.  Each is the sum over the contraction coordinate k of left (p, k) times right (k, q).
-/
import proofs.«122692_j6923487282041_1_alg».proof.Proof.Gen.KernelIdeal
import proofs.«122692_j6923487282041_1_alg».proof.Proof.Spec
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.SL.Sem Cert.KernelIdeal Cert.KernelIdeal.Gen

/-- The block product's left operand index at output index (p, q) and contraction coordinate k: row p is kept. -/
theorem kdot_lhs_0 (i : S1000x256.Idx) (u : dot_S1000x256_S256x256_S1000x256_1_0_0_1_n_n.contr.Idx) :
    (dot_S1000x256_S256x256_S1000x256_1_0_0_1_n_n.lhsIdx i u 0).val = (i 0).val := by
  unfold DotDims.lhsIdx
  rw [dif_neg (show ¬(0 : Fin S1000x256.rank) ∈ dot_S1000x256_S256x256_S1000x256_1_0_0_1_n_n.lhsBatch by decide),
    dif_pos (show (0 : Fin S1000x256.rank) ∈ dot_S1000x256_S256x256_S1000x256_1_0_0_1_n_n.lhsNonContracting by decide)]
  rfl

/-- The left operand's column is the contraction coordinate. -/
theorem kdot_lhs_1 (i : S1000x256.Idx) (u : dot_S1000x256_S256x256_S1000x256_1_0_0_1_n_n.contr.Idx) :
    (dot_S1000x256_S256x256_S1000x256_1_0_0_1_n_n.lhsIdx i u 1).val = (u ⟨0, by decide⟩).val :=
  dot_S1000x256_S256x256_S1000x256_1_0_0_1_n_n.lhsIdx_val_of_single rfl i u

/-- The right operand's row is the contraction coordinate. -/
theorem kdot_rhs_0 (i : S1000x256.Idx) (u : dot_S1000x256_S256x256_S1000x256_1_0_0_1_n_n.contr.Idx) :
    (dot_S1000x256_S256x256_S1000x256_1_0_0_1_n_n.rhsIdx i u 0).val = (u ⟨0, by decide⟩).val :=
  dot_S1000x256_S256x256_S1000x256_1_0_0_1_n_n.rhsIdx_val_of_single rfl i u

/-- The right operand's column q is kept. -/
theorem kdot_rhs_1 (i : S1000x256.Idx) (u : dot_S1000x256_S256x256_S1000x256_1_0_0_1_n_n.contr.Idx) :
    (dot_S1000x256_S256x256_S1000x256_1_0_0_1_n_n.rhsIdx i u 1).val = (i 1).val := by
  unfold DotDims.rhsIdx
  rw [dif_neg (show ¬(1 : Fin S256x256.rank) ∈ dot_S1000x256_S256x256_S1000x256_1_0_0_1_n_n.rhsBatch by decide),
    dif_pos (show (1 : Fin S256x256.rank) ∈ dot_S1000x256_S256x256_S1000x256_1_0_0_1_n_n.rhsNonContracting by decide)]
  rfl

/-- The block product into a zero accumulator at (p, q): the sum over k of l (p, k) · r (k, q). -/
theorem kmm_apply {φ₁ φ₂ : FTy} (l : FVec Ideal S1000x256 φ₁) (r : FVec Ideal S256x256 φ₂) (p : Fin 1000) (q : Fin 256) :
    matmul (F := Ideal) dot_S1000x256_S256x256_S1000x256_1_0_0_1_n_n none l r (constant (F := Ideal) S1000x256 .f32 0x00000000#32) (ValueIdx.ix2 p q)
      = ∑ k : Fin 256, l (ValueIdx.ix2 p k) * r (ValueIdx.ix2 k q) := by
  refine (Ideal.matmul_constant_zero_apply dot_S1000x256_S256x256_S1000x256_1_0_0_1_n_n none l r (ValueIdx.ix2 p q)).trans ?_
  rw [← Equiv.sum_comp (ValueIdx.contrEquiv1 dot_S1000x256_S256x256_S1000x256_1_0_0_1_n_n 256 rfl rfl).symm]
  refine Finset.sum_congr rfl fun k _ => ?_
  have hk := ValueIdx.contrEquiv1_symm_val dot_S1000x256_S256x256_S1000x256_1_0_0_1_n_n 256 rfl rfl k
  have el : dot_S1000x256_S256x256_S1000x256_1_0_0_1_n_n.lhsIdx (ValueIdx.ix2 p q)
      ((ValueIdx.contrEquiv1 dot_S1000x256_S256x256_S1000x256_1_0_0_1_n_n 256 rfl rfl).symm k) = ValueIdx.ix2 p k :=
    funext fun a => Fin.ext (by
      match a with
      | ⟨0, _⟩ => exact kdot_lhs_0 _ _
      | ⟨1, _⟩ => exact (kdot_lhs_1 _ _).trans hk)
  have er : dot_S1000x256_S256x256_S1000x256_1_0_0_1_n_n.rhsIdx (ValueIdx.ix2 p q)
      ((ValueIdx.contrEquiv1 dot_S1000x256_S256x256_S1000x256_1_0_0_1_n_n 256 rfl rfl).symm k) = ValueIdx.ix2 k q :=
    funext fun a => Fin.ext (by
      match a with
      | ⟨0, _⟩ => exact (kdot_rhs_0 _ _).trans hk
      | ⟨1, _⟩ => exact kdot_rhs_1 _ _)
  rw [el, er]

/-- The whole-array product at (p, q): the sum over k of x (p, k) · w (k, q). -/
theorem mm_apply (x : (⟨Cert.ReferenceIdeal.S50000x256, .f32⟩ : BufTy).Contents (Elt Ideal))
    (w : (⟨Cert.ReferenceIdeal.S256x256, .f32⟩ : BufTy).Contents (Elt Ideal)) (p : Fin 50000) (q : Fin 256) :
    mm (F := Ideal) x w (ValueIdx.ix2 p q) = ∑ k : Fin 256, x (ValueIdx.ix2 p k) * w (ValueIdx.ix2 k q) := by
  refine (Cert.ReferenceIdeal.Read.val_main_v29_apply x w (ValueIdx.ix2 p q)).trans ?_
  refine Finset.sum_congr rfl fun k _ => ?_
  have el : Cert.ReferenceIdeal.Read.lidx_main_v29 (ValueIdx.ix2 p q) k = ValueIdx.ix2 p k :=
    funext fun a => Fin.ext (by
      match a with
      | ⟨0, _⟩ => rfl
      | ⟨1, _⟩ => rfl)
  have er : Cert.ReferenceIdeal.Read.ridx_main_v29 (ValueIdx.ix2 p q) k = ValueIdx.ix2 k q :=
    funext fun a => Fin.ext (by
      match a with
      | ⟨0, _⟩ => rfl
      | ⟨1, _⟩ => rfl)
  rw [el, er]

end Cert.Bridge

end
-- ==== Proof.Region0.lean ====
/-
  The first region's output array.

  The region runs over a grid of 50 points.  At point t its body multiplies rows [1000 t, 1000 t + 1000) of the
  [50000, 256] left array by the whole [256, 256] matrix and writes the product back to the same rows of the
  output array.  At the extended reals a change of format is the identity and the product into a zero accumulator
  is the plain sum over the contraction coordinate, so what point t writes back is block t of the whole-array
  product `mm` of the region-entry arrays; the 50 blocks cover every row, hence the array after the region is
  that product.
-/
import proofs.«122692_j6923487282041_1_alg».proof.Proof.Gen.KernelIdeal.Frame
import proofs.«122692_j6923487282041_1_alg».proof.Proof.Gen.KernelIdeal.Points
import proofs.«122692_j6923487282041_1_alg».proof.Proof.Spec
import proofs.«122692_j6923487282041_1_alg».proof.Proof.KMatmul
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- The two zero offsets, however spelt. -/
theorem zero_offsets : (![0, 0] : Fin 2 → Nat) = fun _ => 0 := funext fun a => by fin_cases a <;> rfl

/-- The body's payload at (p, q): row p of the loaded block times column q of the loaded matrix (a change of
    format is the identity at the extended reals, the accumulator is zero). -/
theorem k0_pay1_apply (x0 : Vec Ideal S1000x256 .f32) (x1 : Vec Ideal S256x256 .f32) (p : Fin 1000) (q : Fin 256) :
    k0_pay1 (F := Ideal) x0 x1 (ValueIdx.ix2 p q) = ∑ k : Fin 256, x0 (ValueIdx.ix2 p k) * x1 (ValueIdx.ix2 k q) := by
  unfold k0_pay1
  exact kmm_apply (truncf .bf16 x0 bitsLt_bf16_f32) (truncf .bf16 x1 bitsLt_bf16_f32) p q

/-- The printed index maps over the grid: at point t the row-block windows sit at block row t, the matrix window at
    block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is a row of the array. -/
theorem row_lt0 (t : Fin cfg0.N) (p : Fin 1000) : t.val * 1000 + p.val < 50000 := by
  have ht : t.val < grid0.N := t.isLt
  rw [N_0] at ht
  have hp := p.isLt
  omega

/-- Where element (p, q) of the output block at point t sits in the array: row 1000 t + p, column q. -/
theorem emb_out0 (t : Fin cfg0.N) (p : Fin 1000) (q : Fin 256) :
    ((cfg0.win 2).blk t).view.emb (ValueIdx.ix2 p q) = ValueIdx.ix2 (⟨t.val * 1000 + p.val, row_lt0 t p⟩ : Fin 50000) q := by
  obtain ⟨-, -, -, -, e20, e21⟩ := idx_facts0 t
  funext a; apply Fin.ext
  match a with
  | ⟨0, _⟩ => show win0_2.index t (0 : Fin 2) * 1000 + 1 * p.val = t.val * 1000 + p.val; omega
  | ⟨1, _⟩ => show win0_2.index t (1 : Fin 2) * 256 + 1 * q.val = q.val; omega

/-- Where element (p, k) of the left input's block at point t sits in its array: row 1000 t + p, column k. -/
theorem emb_lhs0 (t : Fin cfg0.N) (p : Fin 1000) (k : Fin 256) :
    ((cfg0.win 0).blk t).view.emb (ValueIdx.ix2 p k) = ValueIdx.ix2 (⟨t.val * 1000 + p.val, row_lt0 t p⟩ : Fin 50000) k := by
  obtain ⟨e00, e01, -, -, -, -⟩ := idx_facts0 t
  funext a; apply Fin.ext
  match a with
  | ⟨0, _⟩ => show win0_0.index t (0 : Fin 2) * 1000 + 1 * p.val = t.val * 1000 + p.val; omega
  | ⟨1, _⟩ => show win0_0.index t (1 : Fin 2) * 256 + 1 * k.val = k.val; omega

/-- The matrix window's block is the whole matrix: element (k, q) sits at (k, q). -/
theorem emb_rhs0 (t : Fin cfg0.N) (k : Fin 256) (q : Fin 256) :
    ((cfg0.win 1).blk t).view.emb (ValueIdx.ix2 k q) = ValueIdx.ix2 k q := by
  obtain ⟨-, -, e10, e11, -, -⟩ := idx_facts0 t
  funext a; apply Fin.ext
  match a with
  | ⟨0, _⟩ => show win0_1.index t (0 : Fin 2) * 256 + 1 * k.val = k.val; omega
  | ⟨1, _⟩ => show win0_1.index t (1 : Fin 2) * 256 + 1 * q.val = q.val; omega

/-- What point t writes back is block t of the whole-array product of the region-entry arrays. -/
theorem flushed0_eq (t : Fin cfg0.N) :
    (dat0 V c).flushed 2 t = ((cfg0.win 2).blk t).view.read (Elt Ideal) (mm (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S1000x256) zero_offsets, View.ld_unit_zero (S := S256x256) zero_offsets]
  funext y
  obtain ⟨p, q, rfl⟩ : ∃ (p : Fin 1000) (q : Fin 256), y = ValueIdx.ix2 p q := ⟨y 0, y 1, ValueIdx.eq_ix2 y⟩
  show k0_pay1 (F := Ideal) (iblk0 V c 0 t) (iblk0 V c 1 t) (ValueIdx.ix2 p q) = mm (F := Ideal) (V c main_arg0) (V c main_arg3) (((cfg0.win 2).blk t).view.emb (ValueIdx.ix2 p q))
  refine (k0_pay1_apply (iblk0 V c 0 t) (iblk0 V c 1 t) p q).trans ?_
  refine Eq.trans ?_ (congrArg (mm (F := Ideal) (V c main_arg0) (V c main_arg3)) (emb_out0 t p q).symm)
  refine Eq.trans ?_ (mm_apply (V c main_arg0) (V c main_arg3) ⟨t.val * 1000 + p.val, row_lt0 t p⟩ q).symm
  refine Finset.sum_congr rfl fun k _ => ?_
  have hl : iblk0 V c 0 t (ValueIdx.ix2 p k) = V c main_arg0 (ValueIdx.ix2 (⟨t.val * 1000 + p.val, row_lt0 t p⟩ : Fin 50000) k) := by
    show V c main_arg0 (((cfg0.win 0).blk t).view.emb (ValueIdx.ix2 p k)) = _
    exact congrArg (V c main_arg0) (emb_lhs0 t p k)
  have hr : iblk0 V c 1 t (ValueIdx.ix2 k q) = V c main_arg3 (ValueIdx.ix2 k q) := by
    show V c main_arg3 (((cfg0.win 1).blk t).view.emb (ValueIdx.ix2 k q)) = _
    exact congrArg (V c main_arg3) (emb_rhs0 t k q)
  rw [hl, hr]

/-- An index of the array is in point t's block iff each coordinate is in the block's range on its axis. -/
theorem mem_blk0 (t : Fin cfg0.N) (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v29).slice (win0_2.rect t)).set ↔ _
  rw [View.set_slice_whole, Rect.mem_set_unit]
  exact Iff.rfl

/-- Every index of the array is in some point's block: row r in the block of point r / 1000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : (i 0).val / 1000 < grid0.N := by rw [N_0]; omega
  refine ⟨⟨(i 0).val / 1000, hN⟩, flush0_2 _, ?_⟩
  rw [mem_blk0]
  obtain ⟨-, -, -, -, e20, e21⟩ := idx_facts0 ⟨(i 0).val / 1000, hN⟩
  intro a
  match a with
  | ⟨0, _⟩ =>
    show win0_2.index ⟨(i 0).val / 1000, hN⟩ (0 : Fin 2) * 1000 ≤ (i 0).val ∧ (i 0).val < win0_2.index ⟨(i 0).val / 1000, hN⟩ (0 : Fin 2) * 1000 + 1000
    rw [e20]
    show (i 0).val / 1000 * 1000 ≤ (i 0).val ∧ (i 0).val < (i 0).val / 1000 * 1000 + 1000
    omega
  | ⟨1, _⟩ =>
    show win0_2.index ⟨(i 0).val / 1000, hN⟩ (1 : Fin 2) * 256 ≤ (i 1).val ∧ (i 1).val < win0_2.index ⟨(i 0).val / 1000, hN⟩ (1 : Fin 2) * 256 + 256
    rw [e21]
    omega

/-- Region 0's output array after the region: the product of the region-entry arrays. -/
theorem region0_value : (dat0 V c).arrAt 2 cfg0.N = mm (F := Ideal) (V c main_arg0) (V c main_arg3) :=
  (dat0 V c).arrAt_eq_of_cover 2 _ (fun t _ => flushed0_eq V c t) cover0

end Cert.Bridge

end
-- ==== Proof.DenseApply.lean ====
/-
  The dense stages read at an index, on both sides.

  At the extended reals the reference's dense stages (a row-broadcast bias, the positive part, the product with a
  256 × 256 weight matrix) and the three kernel bodies' stored values are the same elementwise expressions and the
  same finite sums: this module reads each of them at an index `(p, q)`, the reference's over the whole
  [50000, 256] arrays and the kernels' over one [1000, 256] block, in one common form
  `∑ k, max (a (p, k) + b (0, k)) 0 * w (k, q)` (plus the output bias for the last stage).
-/
import proofs.«122692_j6923487282041_1_alg».proof.Proof.Gen.KernelIdeal.Skeleton
import proofs.«122692_j6923487282041_1_alg».proof.Proof.Spec
import proofs.«122692_j6923487282041_1_alg».proof.Proof.KMatmul
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.TcCoe Idealize.SL.Sem Cert.KernelIdeal Cert.KernelIdeal.Gen
open Idealize.ShloMosaic.ValueIdx

/-! ## The reference's dense stages read at an index

At the extended reals every stage of the dense part is an elementwise expression or a finite sum: a broadcast row
reads the one row it repeats, the zero array reads `0`, the positive part of a biased entry is `max (a + b) 0`, and a
product with a 256 × 256 matrix is the sum over the 256 contracted coordinates. -/

/-- A `[1, 256]` row laid over 50000 rows reads, at `(p, q)`, the row's entry `q`. -/
theorem rows_apply (b2 : (⟨Cert.ReferenceIdeal.S1x256, .f32⟩ : BufTy).Contents (Elt Ideal)) (p : Fin 50000) (q : Fin 256) :
    rows (F := Ideal) b2 (ix2 p q) = b2 (ix2 (0 : Fin 1) q) := by
  unfold rows
  refine broadcastInDim_apply _ _ _ (ix2 p q) (ix2 (0 : Fin 1) q) fun a => ?_
  match a with
  | ⟨0, _⟩ => rfl
  | ⟨1, _⟩ => rfl

/-- The all-zero array reads the extended real `0` everywhere. -/
theorem zeros_apply (i : Cert.ReferenceIdeal.S50000x256.Idx) : zeros (F := Ideal) i = 0 := by
  unfold zeros
  show Ideal.ofBits .f32 0x00000000#32 = 0
  exact Ideal.ofBits_zero_f32

/-- The biased positive part at `(p, q)`: the entry plus the bias row's entry `q`, cut below at `0`. -/
theorem biasRelu_apply (a : (⟨Cert.ReferenceIdeal.S50000x256, .f32⟩ : BufTy).Contents (Elt Ideal))
    (b2 : (⟨Cert.ReferenceIdeal.S1x256, .f32⟩ : BufTy).Contents (Elt Ideal)) (p : Fin 50000) (q : Fin 256) :
    biasRelu (F := Ideal) a b2 (ix2 p q) = max (a (ix2 p q) + b2 (ix2 (0 : Fin 1) q)) 0 := by
  unfold biasRelu
  show max (a (ix2 p q) + rows (F := Ideal) b2 (ix2 p q)) (zeros (F := Ideal) (ix2 p q)) = _
  rw [rows_apply, zeros_apply]

/-- One hidden layer's dense stage at `(p, q)`: the sum over `k` of the biased positive part of row `p` at `k` times
    the weight at `(k, q)`. -/
theorem layer_apply (a : (⟨Cert.ReferenceIdeal.S50000x256, .f32⟩ : BufTy).Contents (Elt Ideal))
    (b2 : (⟨Cert.ReferenceIdeal.S1x256, .f32⟩ : BufTy).Contents (Elt Ideal))
    (w : (⟨Cert.ReferenceIdeal.S256x256, .f32⟩ : BufTy).Contents (Elt Ideal)) (p : Fin 50000) (q : Fin 256) :
    layer (F := Ideal) a b2 w (ix2 p q)
      = ∑ k : Fin 256, max (a (ix2 p k) + b2 (ix2 (0 : Fin 1) k)) 0 * w (ix2 k q) := by
  unfold layer
  rw [mm_apply]
  refine Finset.sum_congr rfl fun k _ => ?_
  rw [biasRelu_apply]

/-- The last dense stage at `(p, q)`: the layer's sum plus the output bias row's entry `q`. -/
theorem head_apply (a : (⟨Cert.ReferenceIdeal.S50000x256, .f32⟩ : BufTy).Contents (Elt Ideal))
    (b2 : (⟨Cert.ReferenceIdeal.S1x256, .f32⟩ : BufTy).Contents (Elt Ideal))
    (w : (⟨Cert.ReferenceIdeal.S256x256, .f32⟩ : BufTy).Contents (Elt Ideal))
    (bp2 : (⟨Cert.ReferenceIdeal.S1x256, .f32⟩ : BufTy).Contents (Elt Ideal)) (p : Fin 50000) (q : Fin 256) :
    head (F := Ideal) a b2 w bp2 (ix2 p q)
      = (∑ k : Fin 256, max (a (ix2 p k) + b2 (ix2 (0 : Fin 1) k)) 0 * w (ix2 k q)) + bp2 (ix2 (0 : Fin 1) q) := by
  unfold head
  show layer (F := Ideal) a b2 w (ix2 p q) + rows (F := Ideal) bp2 (ix2 p q) = _
  rw [layer_apply, rows_apply]

/-! ## The kernels' payloads read at an index

Each body's stored value, as a function of the blocks it loads: the same expressions over a 1000-row block. The
format changes between the product's operands are the identity on extended reals, a shape cast to the same shape
is the identity, and the product accumulates into the zero block. -/

/-- The fused layer body at `(p, q)` of its block. -/
theorem k1_pay1_apply (x0 : Vec Ideal S1000x256 .f32) (x1 : Vec Ideal S1x256 .f32) (x2 : Vec Ideal S256x256 .f32)
    (p : Fin 1000) (q : Fin 256) :
    k1_pay1 (F := Ideal) x0 x1 x2 (ix2 p q)
      = ∑ k : Fin 256, max (x0 (ix2 p k) + x1 (ix2 (0 : Fin 1) k)) 0 * x2 (ix2 k q) := by
  unfold k1_pay1
  refine (kmm_apply _ _ p q).trans ?_
  refine Finset.sum_congr rfl fun k _ => ?_
  show max (shapeCast S1000x256 x0 shapeCasts_S1000x256_S1000x256 (ix2 p k)
      + broadcastTo S1000x256 (shapeCast S1x256 x1 shapeCasts_S1x256_S1x256) broadcasts_S1x256_S1000x256 (ix2 p k))
      (Ideal.ofBits .f32 0x00000000#32) * x2 (ix2 k q) = _
  rw [shapeCast_self, shapeCast_self, broadcastTo_1b_ab_apply, Ideal.ofBits_zero_f32]

/-- The final body at `(p, q)` of its block: the fused layer's sum plus the output bias row's entry `q`. -/
theorem k2_pay1_apply (x0 : Vec Ideal S1000x256 .f32) (x1 : Vec Ideal S1x256 .f32) (x2 : Vec Ideal S256x256 .f32)
    (x3 : Vec Ideal S1x256 .f32) (p : Fin 1000) (q : Fin 256) :
    k2_pay1 (F := Ideal) x0 x1 x2 x3 (ix2 p q)
      = (∑ k : Fin 256, max (x0 (ix2 p k) + x1 (ix2 (0 : Fin 1) k)) 0 * x2 (ix2 k q)) + x3 (ix2 (0 : Fin 1) q) := by
  unfold k2_pay1
  show matmul (F := Ideal) dot_S1000x256_S256x256_S1000x256_1_0_0_1_n_n none _ _ (constant (F := Ideal) S1000x256 .f32 0x00000000#32) (ix2 p q)
      + broadcastTo S1000x256 (shapeCast S1x256 x3 shapeCasts_S1x256_S1x256) broadcasts_S1x256_S1000x256 (ix2 p q) = _
  rw [kmm_apply, broadcastTo_1b_ab_apply, shapeCast_self x3]
  refine congrArg (· + x3 (ix2 (0 : Fin 1) q)) (Finset.sum_congr rfl fun k _ => ?_)
  show max (shapeCast S1000x256 x0 shapeCasts_S1000x256_S1000x256 (ix2 p k)
      + broadcastTo S1000x256 (shapeCast S1x256 x1 shapeCasts_S1x256_S1x256) broadcasts_S1x256_S1000x256 (ix2 p k))
      (Ideal.ofBits .f32 0x00000000#32) * x2 (ix2 k q) = _
  rw [shapeCast_self, shapeCast_self, broadcastTo_1b_ab_apply, Ideal.ofBits_zero_f32]

end Cert.Bridge

end
-- ==== Proof.Region1.lean ====
/-
  The second region's output array.

  The second region runs its body at 50 grid points. At point `t` the body reads rows [1000 t, 1000 t + 1000) of the
  aggregated features, the bias row and the weight matrix whole, and writes back the same rows of its output. What it
  writes at `(p, q)` of the block is one hidden layer's dense stage at `(1000 t + p, q)` of the array: the sum over
  `k` of the biased positive part at `(1000 t + p, k)` times the weight at `(k, q)`. The 50 row blocks cover the
  array, so after the region the output array is that stage of the arrays the region finds.
-/
import proofs.«122692_j6923487282041_1_alg».proof.Proof.Gen.KernelIdeal.Frame
import proofs.«122692_j6923487282041_1_alg».proof.Proof.Spec
import proofs.«122692_j6923487282041_1_alg».proof.Proof.DenseApply
import Idealize.ShloMosaic.Lib.Pipeline.Value
import Idealize.ShloMosaic.Lib.ValueIdx

noncomputable section

namespace Cert.Bridge

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b)) (c : Dev nD)

/-- The body's loads and its store start at offset zero on both axes. -/
theorem offsets_zero_r1 : (![0, 0] : Fin 2 → Nat) = fun _ => 0 := funext fun a => by fin_cases a <;> rfl

/-- The windows' block indices at grid point `t`: the feature window and the output window are at row block `t`,
    the bias row and the weight matrix at their one block. -/
theorem index_maps_r1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t` is a row of the array. -/
theorem row_lt_r1 (t : Fin cfg1.N) (p : Fin 1000) : t.val * 1000 + p.val < 50000 := by
  have ht : t.val < 50 := t.isLt.trans_eq N_1
  have hp := p.isLt
  omega

/-- Where the output block's entry `(p, q)` sits in the array: row `1000 t + p`, column `q`. -/
theorem emb_out_r1 (t : Fin cfg1.N) (p : Fin 1000) (q : Fin 256) (h : t.val * 1000 + p.val < 50000) :
    ((cfg1.win 3).blk t).view.emb (ix2 p q) = ix2 (⟨t.val * 1000 + p.val, h⟩ : Fin 50000) q := by
  obtain ⟨-, -, -, -, -, -, e6, e7⟩ := index_maps_r1 t
  funext a; apply Fin.ext
  match a with
  | ⟨0, _⟩ => show win1_3.index t (0 : Fin 2) * 1000 + 1 * p.val = t.val * 1000 + p.val; omega
  | ⟨1, _⟩ => show win1_3.index t (1 : Fin 2) * 256 + 1 * q.val = q.val; omega

/-- The feature block at `(p, k)` is the feature array at `(1000 t + p, k)`. -/
theorem blk0_r1 (t : Fin cfg1.N) (p : Fin 1000) (k : Fin 256) (h : t.val * 1000 + p.val < 50000) :
    iblk1 V c 0 t (ix2 p k) = V c main_v42 (ix2 (⟨t.val * 1000 + p.val, h⟩ : Fin 50000) k) := by
  show V c main_v42 (((cfg1.win 0).blk t).view.emb (ix2 p k)) = _
  refine congrArg (V c main_v42) ?_
  obtain ⟨e0, e1, -⟩ := index_maps_r1 t
  funext a; apply Fin.ext
  match a with
  | ⟨0, _⟩ => show win1_0.index t (0 : Fin 2) * 1000 + 1 * p.val = t.val * 1000 + p.val; omega
  | ⟨1, _⟩ => show win1_0.index t (1 : Fin 2) * 256 + 1 * k.val = k.val; omega

/-- The bias row's block is the row itself. -/
theorem blk1_r1 (t : Fin cfg1.N) (k : Fin 256) :
    iblk1 V c 1 t (ix2 (0 : Fin 1) k) = V c main_v43 (ix2 (0 : Fin 1) k) := by
  show V c main_v43 (((cfg1.win 1).blk t).view.emb (ix2 (0 : Fin 1) k)) = _
  refine congrArg (V c main_v43) ?_
  obtain ⟨-, -, e2, e3, -⟩ := index_maps_r1 t
  funext a; apply Fin.ext
  match a with
  | ⟨0, _⟩ => show win1_1.index t (0 : Fin 2) * 1 + 1 * 0 = 0; omega
  | ⟨1, _⟩ => show win1_1.index t (1 : Fin 2) * 256 + 1 * k.val = k.val; omega

/-- The weight matrix's block is the matrix itself. -/
theorem blk2_r1 (t : Fin cfg1.N) (k q : Fin 256) :
    iblk1 V c 2 t (ix2 k q) = V c main_arg5 (ix2 k q) := by
  show V c main_arg5 (((cfg1.win 2).blk t).view.emb (ix2 k q)) = _
  refine congrArg (V c main_arg5) ?_
  obtain ⟨-, -, -, -, e4, e5, -⟩ := index_maps_r1 t
  funext a; apply Fin.ext
  match a with
  | ⟨0, _⟩ => show win1_2.index t (0 : Fin 2) * 256 + 1 * k.val = k.val; omega
  | ⟨1, _⟩ => show win1_2.index t (1 : Fin 2) * 256 + 1 * q.val = q.val; omega

/-- What grid point `t` writes back is block `t` of the hidden layer's dense stage of the arrays the region finds. -/
theorem flushed_r1 (t : Fin cfg1.N) :
    (dat1 V c).flushed 3 t = ((cfg1.win 3).blk t).view.read (Elt Ideal)
      (layer (F := Ideal) (V c main_v42) (V c main_v43) (V c main_arg5)) := by
  show (cfg1.win 3).cut (grid1.coords t) ((dat1 V c).after 3 t) = _
  rw [after1_3]
  unfold out1_3
  rw [View.canon_unit_zero offsets_zero_r1]
  simp only [View.ld_unit_zero (S := S1000x256) offsets_zero_r1, View.ld_unit_zero (S := S1x256) offsets_zero_r1,
    View.ld_unit_zero (S := S256x256) offsets_zero_r1]
  funext y
  obtain ⟨p, q, rfl⟩ : ∃ (p : Fin 1000) (q : Fin 256), y = ix2 p q := ⟨y 0, y 1, eq_ix2 y⟩
  have hr := row_lt_r1 t p
  show k1_pay1 (F := Ideal) (iblk1 V c 0 t) (iblk1 V c 1 t) (iblk1 V c 2 t) (ix2 p q)
      = layer (F := Ideal) (V c main_v42) (V c main_v43) (V c main_arg5)
          (((cfg1.win 3).blk t).view.emb (ix2 p q))
  refine (k1_pay1_apply _ _ _ p q).trans ?_
  refine Eq.trans ?_ (congrArg (layer (F := Ideal) (V c main_v42) (V c main_v43) (V c main_arg5))
    (emb_out_r1 t p q hr)).symm
  rw [layer_apply]
  refine Finset.sum_congr rfl fun k _ => ?_
  rw [blk0_r1 V c t p k hr, blk1_r1 V c t k, blk2_r1 V c t k q]

/-- An index of the output array is in point `t`'s block iff each coordinate is in the block's range on its axis. -/
theorem mem_out_r1 (t : Fin cfg1.N) (i : S50000x256.Idx) :
    i ∈ ((cfg1.win 3).blk t).view.set ↔ ∀ a : Fin 2, win1_3.index t a * S1000x256.size a ≤ (i a).val
      ∧ (i a).val < win1_3.index t a * S1000x256.size a + S1000x256.size a := by
  show i ∈ ((View.whole main_v44).slice (win1_3.rect t)).set ↔ _
  rw [View.set_slice_whole, Rect.mem_set_unit]
  exact Iff.rfl

/-- Every index of the output array is in the block of the grid point its row names: row `r` in block `r / 1000`. -/
theorem cover_r1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 50 := N_1
  obtain ⟨t, ht⟩ : ∃ t : Fin cfg1.N, t.val = (i 0).val / 1000 := ⟨⟨(i 0).val / 1000, by omega⟩, rfl⟩
  obtain ⟨-, -, -, -, -, -, e6, e7⟩ := index_maps_r1 t
  refine ⟨t, flush1_3 t, ?_⟩
  rw [mem_out_r1]
  intro a
  match a with
  | ⟨0, _⟩ =>
    show win1_3.index t (0 : Fin 2) * 1000 ≤ (i 0).val ∧ (i 0).val < win1_3.index t (0 : Fin 2) * 1000 + 1000
    omega
  | ⟨1, _⟩ =>
    show win1_3.index t (1 : Fin 2) * 256 ≤ (i 1).val ∧ (i 1).val < win1_3.index t (1 : Fin 2) * 256 + 256
    omega

/-- After the second region its output array is the hidden layer's dense stage of the arrays the region finds. -/
theorem region1_value : (dat1 V c).arrAt 3 cfg1.N
    = layer (F := Ideal) (V c main_v42) (V c main_v43) (V c main_arg5) :=
  (dat1 V c).arrAt_eq_of_cover 3 _ (fun t _ => flushed_r1 V c t) cover_r1

end Cert.Bridge

end
-- ==== Proof.Region2.lean ====
/-
  The third region's output array.

  The third region runs its body at 50 grid points. At point `t` the body reads rows [1000 t, 1000 t + 1000) of the
  aggregated features, the two bias rows and the weight matrix whole, and writes back the same rows of its output. What
  it writes at `(p, q)` of the block is the last dense stage of the network at `(1000 t + p, q)` of the array: the
  sum over `k` of the biased positive part at `(1000 t + p, k)` times the weight at `(k, q)`, plus the output bias at
  `q`. The 50 row blocks cover the array, so after the region the output array is that stage of the arrays the region
  finds.
-/
import proofs.«122692_j6923487282041_1_alg».proof.Proof.Gen.KernelIdeal.Frame
import proofs.«122692_j6923487282041_1_alg».proof.Proof.Spec
import proofs.«122692_j6923487282041_1_alg».proof.Proof.DenseApply
import Idealize.ShloMosaic.Lib.Pipeline.Value
import Idealize.ShloMosaic.Lib.ValueIdx

noncomputable section

namespace Cert.Bridge

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b)) (c : Dev nD)

/-- The body's loads and its store start at offset zero on both axes. -/
theorem offsets_zero_r2 : (![0, 0] : Fin 2 → Nat) = fun _ => 0 := funext fun a => by fin_cases a <;> rfl

/-- The windows' block indices at grid point `t`: the feature window and the output window are at row block `t`,
    the bias rows and the weight matrix at their one block. -/
theorem index_maps_r2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of block `t` is a row of the array. -/
theorem row_lt_r2 (t : Fin cfg2.N) (p : Fin 1000) : t.val * 1000 + p.val < 50000 := by
  have ht : t.val < 50 := t.isLt.trans_eq N_2
  have hp := p.isLt
  omega

/-- Where the output block's entry `(p, q)` sits in the array: row `1000 t + p`, column `q`. -/
theorem emb_out_r2 (t : Fin cfg2.N) (p : Fin 1000) (q : Fin 256) (h : t.val * 1000 + p.val < 50000) :
    ((cfg2.win 4).blk t).view.emb (ix2 p q) = ix2 (⟨t.val * 1000 + p.val, h⟩ : Fin 50000) q := by
  obtain ⟨-, -, -, -, -, -, -, -, e8, e9⟩ := index_maps_r2 t
  funext a; apply Fin.ext
  match a with
  | ⟨0, _⟩ => show win2_4.index t (0 : Fin 2) * 1000 + 1 * p.val = t.val * 1000 + p.val; omega
  | ⟨1, _⟩ => show win2_4.index t (1 : Fin 2) * 256 + 1 * q.val = q.val; omega

/-- The feature block at `(p, k)` is the feature array at `(1000 t + p, k)`. -/
theorem blk0_r2 (t : Fin cfg2.N) (p : Fin 1000) (k : Fin 256) (h : t.val * 1000 + p.val < 50000) :
    iblk2 V c 0 t (ix2 p k) = V c main_v57 (ix2 (⟨t.val * 1000 + p.val, h⟩ : Fin 50000) k) := by
  show V c main_v57 (((cfg2.win 0).blk t).view.emb (ix2 p k)) = _
  refine congrArg (V c main_v57) ?_
  obtain ⟨e0, e1, -⟩ := index_maps_r2 t
  funext a; apply Fin.ext
  match a with
  | ⟨0, _⟩ => show win2_0.index t (0 : Fin 2) * 1000 + 1 * p.val = t.val * 1000 + p.val; omega
  | ⟨1, _⟩ => show win2_0.index t (1 : Fin 2) * 256 + 1 * k.val = k.val; omega

/-- The hidden bias row's block is the row itself. -/
theorem blk1_r2 (t : Fin cfg2.N) (k : Fin 256) :
    iblk2 V c 1 t (ix2 (0 : Fin 1) k) = V c main_v58 (ix2 (0 : Fin 1) k) := by
  show V c main_v58 (((cfg2.win 1).blk t).view.emb (ix2 (0 : Fin 1) k)) = _
  refine congrArg (V c main_v58) ?_
  obtain ⟨-, -, e2, e3, -⟩ := index_maps_r2 t
  funext a; apply Fin.ext
  match a with
  | ⟨0, _⟩ => show win2_1.index t (0 : Fin 2) * 1 + 1 * 0 = 0; omega
  | ⟨1, _⟩ => show win2_1.index t (1 : Fin 2) * 256 + 1 * k.val = k.val; omega

/-- The weight matrix's block is the matrix itself. -/
theorem blk2_r2 (t : Fin cfg2.N) (k q : Fin 256) :
    iblk2 V c 2 t (ix2 k q) = V c main_arg7 (ix2 k q) := by
  show V c main_arg7 (((cfg2.win 2).blk t).view.emb (ix2 k q)) = _
  refine congrArg (V c main_arg7) ?_
  obtain ⟨-, -, -, -, e4, e5, -⟩ := index_maps_r2 t
  funext a; apply Fin.ext
  match a with
  | ⟨0, _⟩ => show win2_2.index t (0 : Fin 2) * 256 + 1 * k.val = k.val; omega
  | ⟨1, _⟩ => show win2_2.index t (1 : Fin 2) * 256 + 1 * q.val = q.val; omega

/-- The output bias row's block is the row itself. -/
theorem blk3_r2 (t : Fin cfg2.N) (q : Fin 256) :
    iblk2 V c 3 t (ix2 (0 : Fin 1) q) = V c main_v59 (ix2 (0 : Fin 1) q) := by
  show V c main_v59 (((cfg2.win 3).blk t).view.emb (ix2 (0 : Fin 1) q)) = _
  refine congrArg (V c main_v59) ?_
  obtain ⟨-, -, -, -, -, -, e6, e7, -⟩ := index_maps_r2 t
  funext a; apply Fin.ext
  match a with
  | ⟨0, _⟩ => show win2_3.index t (0 : Fin 2) * 1 + 1 * 0 = 0; omega
  | ⟨1, _⟩ => show win2_3.index t (1 : Fin 2) * 256 + 1 * q.val = q.val; omega

/-- What grid point `t` writes back is block `t` of the last dense stage of the arrays the region finds. -/
theorem flushed_r2 (t : Fin cfg2.N) :
    (dat2 V c).flushed 4 t = ((cfg2.win 4).blk t).view.read (Elt Ideal)
      (head (F := Ideal) (V c main_v57) (V c main_v58) (V c main_arg7) (V c main_v59)) := by
  show (cfg2.win 4).cut (grid2.coords t) ((dat2 V c).after 4 t) = _
  rw [after2_4]
  unfold out2_4
  rw [View.canon_unit_zero offsets_zero_r2]
  simp only [View.ld_unit_zero (S := S1000x256) offsets_zero_r2, View.ld_unit_zero (S := S1x256) offsets_zero_r2,
    View.ld_unit_zero (S := S256x256) offsets_zero_r2]
  funext y
  obtain ⟨p, q, rfl⟩ : ∃ (p : Fin 1000) (q : Fin 256), y = ix2 p q := ⟨y 0, y 1, eq_ix2 y⟩
  have hr := row_lt_r2 t p
  show k2_pay1 (F := Ideal) (iblk2 V c 0 t) (iblk2 V c 1 t) (iblk2 V c 2 t) (iblk2 V c 3 t) (ix2 p q)
      = head (F := Ideal) (V c main_v57) (V c main_v58) (V c main_arg7) (V c main_v59)
          (((cfg2.win 4).blk t).view.emb (ix2 p q))
  refine (k2_pay1_apply _ _ _ _ p q).trans ?_
  refine Eq.trans ?_ (congrArg (head (F := Ideal) (V c main_v57) (V c main_v58) (V c main_arg7) (V c main_v59))
    (emb_out_r2 t p q hr)).symm
  rw [head_apply]
  refine congr (congrArg HAdd.hAdd (Finset.sum_congr rfl fun k _ => ?_)) (blk3_r2 V c t q)
  rw [blk0_r2 V c t p k hr, blk1_r2 V c t k, blk2_r2 V c t k q]

/-- An index of the output array is in point `t`'s block iff each coordinate is in the block's range on its axis. -/
theorem mem_out_r2 (t : Fin cfg2.N) (i : S50000x256.Idx) :
    i ∈ ((cfg2.win 4).blk t).view.set ↔ ∀ a : Fin 2, win2_4.index t a * S1000x256.size a ≤ (i a).val
      ∧ (i a).val < win2_4.index t a * S1000x256.size a + S1000x256.size a := by
  show i ∈ ((View.whole main_v60).slice (win2_4.rect t)).set ↔ _
  rw [View.set_slice_whole, Rect.mem_set_unit]
  exact Iff.rfl

/-- Every index of the output array is in the block of the grid point its row names: row `r` in block `r / 1000`. -/
theorem cover_r2 (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hN : cfg2.N = 50 := N_2
  obtain ⟨t, ht⟩ : ∃ t : Fin cfg2.N, t.val = (i 0).val / 1000 := ⟨⟨(i 0).val / 1000, by omega⟩, rfl⟩
  obtain ⟨-, -, -, -, -, -, -, -, e8, e9⟩ := index_maps_r2 t
  refine ⟨t, flush2_4 t, ?_⟩
  rw [mem_out_r2]
  intro a
  match a with
  | ⟨0, _⟩ =>
    show win2_4.index t (0 : Fin 2) * 1000 ≤ (i 0).val ∧ (i 0).val < win2_4.index t (0 : Fin 2) * 1000 + 1000
    omega
  | ⟨1, _⟩ =>
    show win2_4.index t (1 : Fin 2) * 256 ≤ (i 1).val ∧ (i 1).val < win2_4.index t (1 : Fin 2) * 256 + 256
    omega

/-- After the third region its output array is the last dense stage of the arrays the region finds. -/
theorem region2_value : (dat2 V c).arrAt 4 cfg2.N
    = head (F := Ideal) (V c main_v57) (V c main_v58) (V c main_arg7) (V c main_v59) :=
  (dat2 V c).arrAt_eq_of_cover 4 _ (fun t _ => flushed_r2 V c t) cover_r2

end Cert.Bridge

end
-- ==== Proof.lean ====
/-
  The certificate of the three-region graph-convolution tail against its jnp reference.

  Both programs compute, at the ideal values (extended reals, exact operations, format changes the identity),

      out = relu (A (relu (A (x · W6) + b6) · W7) + b7) · Wp + bp ,

  A the normalised edge aggregation.  The reference does it as one host program; the kernel runs the three dense
  stages as grid regions of 50 row blocks each (the products as MXU matmuls into a zero accumulator over operands
  truncated to bf16 — the identity at the ideal values), with the edge gathers and scatter-adds as host operations
  between them, the same operations the reference applies.

  The frames of the two kernel programs are the generated ones; the reference's frame is its generated run with the
  result dropped; the ideal pass rewrote nothing, so `preserves` is trivial.  For `algebraic`: the kernel's run names
  its result as the fold of the segments (KernelRun), each region's output array is the common form's dense stage of
  the arrays the region finds (Region0, Region1, Region2: block by block, a row block of the product is the product
  of the row block), the host stretches are read one buffer at a time (Stretch), and the walk through the boundaries
  (Walk) ends at the common form `net` of the argument arrays — which is, by unfolding, the reference's term (Spec).
-/
import proofs.«122692_j6923487282041_1_alg».proof.Defs
import proofs.«122692_j6923487282041_1_alg».proof.Proof.Gen.Kernel
import proofs.«122692_j6923487282041_1_alg».proof.Proof.Gen.Kernel.Skeleton
import proofs.«122692_j6923487282041_1_alg».proof.Proof.Gen.Kernel.Launch
import proofs.«122692_j6923487282041_1_alg».proof.Proof.Gen.Kernel.Points
import proofs.«122692_j6923487282041_1_alg».proof.Proof.Gen.Kernel.Frame
import proofs.«122692_j6923487282041_1_alg».proof.Proof.Gen.KernelIdeal
import proofs.«122692_j6923487282041_1_alg».proof.Proof.Gen.KernelIdeal.Skeleton
import proofs.«122692_j6923487282041_1_alg».proof.Proof.Gen.KernelIdeal.Launch
import proofs.«122692_j6923487282041_1_alg».proof.Proof.Gen.KernelIdeal.Points
import proofs.«122692_j6923487282041_1_alg».proof.Proof.Gen.KernelIdeal.Frame
import proofs.«122692_j6923487282041_1_alg».proof.Proof.Gen.ReferenceIdeal
import proofs.«122692_j6923487282041_1_alg».proof.Proof.Gen.Pre_finite_inputs
import proofs.«122692_j6923487282041_1_alg».proof.Proof.Gen.ReferenceIdeal.Read
import proofs.«122692_j6923487282041_1_alg».proof.Proof.Spec
import proofs.«122692_j6923487282041_1_alg».proof.Proof.KernelRun
import proofs.«122692_j6923487282041_1_alg».proof.Proof.Walk
import proofs.«122692_j6923487282041_1_alg».proof.Proof.Region0
import proofs.«122692_j6923487282041_1_alg».proof.Proof.Region1
import proofs.«122692_j6923487282041_1_alg».proof.Proof.Region2
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same array: the kernel's result buffer at the
    last boundary of its fold, which the walk reads as the network of the arguments, and the reference's composed term,
    which is that network by unfolding. -/
theorem algebraic : Cert.algebraic_KernelIdeal_ReferenceIdeal := by
  intro m ρ m' ρ' _ hagree
  refine ⟨fun c => Cert.KernelIdeal.Gen.W6 m ρ c (Proc.devRef .tc Cert.KernelIdeal.main_v60), Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, Cert.Bridge.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.Bridge.w6_out m ρ c Cert.Bridge.region0_value Cert.Bridge.region1_value Cert.Bridge.region2_value).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
